-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x128 .f32) (main_arg1 : FVec F S40x128 .f32) (main_arg2 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg1
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x128 : Shape := ⟨2, ![100000, 128]⟩
abbrev S40x128 : Shape := ⟨2, ![40, 128]⟩
abbrev S40 : Shape := ⟨1, ![40]⟩
abbrev S128x40 : Shape := ⟨2, ![128, 40]⟩
abbrev S1x40 : Shape := ⟨2, ![1, 40]⟩
abbrev S100000x40 : Shape := ⟨2, ![100000, 40]⟩
abbrev S20000x128 : Shape := ⟨2, ![20000, 128]⟩
abbrev S20000x40 : Shape := ⟨2, ![20000, 40]⟩

abbrev nBuf : Space → Nat
  | .hbm => 7
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S128x40, .f32⟩
  | .hbm, ⟨4, _⟩ => ⟨S1x40, .f32⟩
  | .hbm, ⟨5, _⟩ => ⟨S100000x40, .bf16⟩
  | .hbm, ⟨6, _⟩ => ⟨S100000x40, .f32⟩
  | .local _ .vmem, ⟨0, _⟩ => ⟨S20000x128, .f32⟩
  | .local _ .vmem, ⟨1, _⟩ => ⟨S20000x128, .f32⟩
  | .local _ .vmem, ⟨2, _⟩ => ⟨S128x40, .f32⟩
  | .local _ .vmem, ⟨3, _⟩ => ⟨S1x40, .f32⟩
  | .local _ .vmem, ⟨4, _⟩ => ⟨S20000x40, .bf16⟩
  | .local _ .vmem, ⟨5, _⟩ => ⟨S20000x40, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x40 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S40x128_S128x40_1_0 : S40x128.Transposes [1, 0] S128x40
  shapeCasts_S40_S1x40 : S40.ShapeCasts S1x40
  inb_S20000x128_S20000x128_0_0 : ∀ a, (![0, 0] : Fin 2 → Nat) a + S20000x128.size a ≤ S20000x128.size a
  h_S20000x128 : 0 < S20000x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  bitsLt_bf16_f32 : FTy.bits .bf16 < FTy.bits .f32
  inb_S20000x40_S20000x40_0_0 : ∀ a, (![0, 0] : Fin 2 → Nat) a + S20000x40.size a ≤ S20000x40.size a
  h_S20000x40 : 0 < S20000x40.numel
  packedbf16_S20000x40_S20000x40_0_0 : (Rect.unit (s := S20000x40) ![0, 0] S20000x40.size inb_S20000x40_S20000x40_0_0).PackedRows (EltTy.packing .bf16)
  dot_S20000x128_S128x40_S20000x40_1_0_0_1_n_n_wf : DotDims.WF S20000x128 S128x40 S20000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x40.size a ≤ S128x40.size a
  hwx0_1 : ∀ i : grid0.Coords, EltTy.bits .f32 = 32 ∨ (Rect.block (s := S128x40) S128x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x40.size a ≤ S100000x40.size a
  hwx0_3 : ∀ i : grid0.Coords, EltTy.bits .bf16 = 32 ∨ (Rect.block (s := S100000x40) S20000x40.size (cc0_transform_3 i) (hinb0_3 i)).WholeWords (EltTy.packing .bf16)

variable [Facts₀]

def dot_S20000x128_S128x40_S20000x40_1_0_0_1_n_n : DotDims S20000x128 S128x40 S20000x40 where
  lhsContracting := [1]
  rhsContracting := [0]
  lhsNonContracting := [0]
  rhsNonContracting := [1]
  lhsBatch := []
  rhsBatch := []
  wf := dot_S20000x128_S128x40_S20000x40_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S20000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S40x128 : Shape := ⟨2, ![40, 128]⟩
abbrev S40 : Shape := ⟨1, ![40]⟩
abbrev S128x40 : Shape := ⟨2, ![128, 40]⟩
abbrev S100000x40 : Shape := ⟨2, ![100000, 40]⟩
abbrev S1x40 : Shape := ⟨2, ![1, 40]⟩

abbrev nBuf : Space → Nat
  | .hbm => 8
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S128x40, .f32⟩
  | .hbm, ⟨4, _⟩ => ⟨S100000x40, .f32⟩
  | .hbm, ⟨5, _⟩ => ⟨S1x40, .f32⟩
  | .hbm, ⟨6, _⟩ => ⟨S100000x40, .f32⟩
  | .hbm, ⟨7, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x40_S100000x40_1_0_0_1_n_n_wf : DotDims.WF S100000x128 S128x40 S100000x40 [1] [0] [0] [1] [] []

variable [Facts₀]

def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Affine.lean ====
/-
  The function both programs compute: the affine map of a linear classifier head,

      out[r, j] = (∑ k < 128, x[r, k] · W[j, k]) + b[j]        (r < 100000, j < 40),

  over the extended reals. Only the sum and the product of extended reals enter: the bias is added to the
  finished row-times-column sum, once, and the factors stand in the order `x · W`. Nothing here needs the
  inputs to be finite.
-/
import Idealize.ShloMosaic.PureOps.Ideal
import Idealize.ShloMosaic.Lib.ValueIdx

noncomputable section

namespace Cert.Affine

open Idealize.ShloMosaic Idealize.ShloMosaic.ValueIdx

/-- Entry `(r, j)` of `x · Wᵀ + b`: row `r` of `x` against row `j` of `W` (the contraction runs over the 128
    features of both), plus entry `j` of the bias. -/
def affine (x : (⟨2, ![100000, 128]⟩ : Shape).Idx → EReal) (W : (⟨2, ![40, 128]⟩ : Shape).Idx → EReal)
    (b : (⟨1, ![40]⟩ : Shape).Idx → EReal) : (⟨2, ![100000, 40]⟩ : Shape).Idx → EReal :=
  fun i => (∑ k : Fin 128, x (ix2 (i 0) k) * W (ix2 (i 1) k)) + b (ix1 (i 1))

/-- The same entry at any output index whose two coordinates are known. -/
theorem affine_of_coords (x : (⟨2, ![100000, 128]⟩ : Shape).Idx → EReal) (W : (⟨2, ![40, 128]⟩ : Shape).Idx → EReal)
    (b : (⟨1, ![40]⟩ : Shape).Idx → EReal) (i : (⟨2, ![100000, 40]⟩ : Shape).Idx) (r : Fin 100000) (j : Fin 40)
    (h0 : (i 0).val = r.val) (h1 : (i 1).val = j.val) :
    affine x W b i = (∑ k : Fin 128, x (ix2 r k) * W (ix2 j k)) + b (ix1 j) := by
  have e : i = ix2 r j := funext fun a => Fin.ext (by
    match a with
    | ⟨0, _⟩ => exact h0
    | ⟨1, _⟩ => exact h1)
  rw [e]
  rfl

end Cert.Affine

end
-- ==== Proof.RefAffine.lean ====
/-
  The reference computes the affine map. Its five host operations — transpose `W`, contract `x` with the
  transposed `W` over the feature axis, broadcast the bias to a row and then to every row, add — read at an
  output index `(r, j)` are: the sum over `k` of `x[r, k]` times the transposed weight at `(k, j)`, which is
  `W[j, k]`; plus the twice-broadcast bias at `(r, j)`, which is `b[j]`.
-/
import proofs.«100996_g25323127177384_cont_9to1_2235_19_alg».proof.Proof.Gen.ReferenceIdeal.Read
import proofs.«100996_g25323127177384_cont_9to1_2235_19_alg».proof.Proof.Affine

noncomputable section

namespace Cert.ReferenceIdeal.RefAffine

open Cert.ReferenceIdeal Cert.ReferenceIdeal.Gen Cert.ReferenceIdeal.Read
open Idealize.ShloMosaic Idealize.ShloMosaic.TcCoe Idealize.ShloMosaic.ValueIdx

/-- The left operand of the contraction at `(r, j)`, `k`: `x` at `(r, k)`. -/
theorem lidx_eq (i : S100000x40.Idx) (k : Fin 128) : lidx_main_v1 i k = ix2 (i 0) k :=
  funext fun a => Fin.ext (by match a with | ⟨0, _⟩ => rfl | ⟨1, _⟩ => rfl)

/-- The right operand is the transposed weight at `(k, j)`, that is `W` at `(j, k)`. -/
theorem ridx_eq (i : S100000x40.Idx) (k : Fin 128) : idx_main_v0 (ridx_main_v1 i k) = ix2 (i 1) k :=
  funext fun a => Fin.ext (by match a with | ⟨0, _⟩ => rfl | ⟨1, _⟩ => rfl)

/-- The bias broadcast to `[1, 40]` and then to `[100000, 40]`, at `(r, j)`: `b` at `j`. -/
theorem bidx_eq (i : S100000x40.Idx) : idx_main_v2 (idx_main_v3 i) = ix1 (i 1) :=
  funext fun a => Fin.ext (by match a with | ⟨0, _⟩ => rfl)

/-- The reference's result, as a function of the three arguments, is the affine map. -/
theorem val_eq_affine (x : (⟨S100000x128, .f32⟩ : BufTy).Contents (Elt Ideal)) (W : (⟨S40x128, .f32⟩ : BufTy).Contents (Elt Ideal))
    (b : (⟨S40, .f32⟩ : BufTy).Contents (Elt Ideal)) :
    val_main_v4 (F := Ideal) x W b = Cert.Affine.affine x W b := by
  funext i
  rw [val_main_v4_apply, val_main_v1_apply, val_main_v3_apply, val_main_v2_apply]
  simp only [val_main_v0_apply, lidx_eq, ridx_eq, bidx_eq]
  rfl

end Cert.ReferenceIdeal.RefAffine

end
-- ==== Proof.BlockValue.lean ====
/-
  What one grid step stores, entry by entry. The body multiplies its block of 20000 rows of `x` by the whole
  transposed weight `wt` (128 × 40) into a zero accumulator, adds the bias row (1 × 40) broadcast down the rows, and
  stores the result in the narrower float format, which over the extended reals changes nothing. So the stored
  entry at row `p` of the block and class `q` is

      (∑ k < 128, xblk[p, k] · wt[k, q]) + brow[0, q].
-/
import proofs.«100996_g25323127177384_cont_9to1_2235_19_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.KernelIdeal.Facts₀
open Idealize.ShloMosaic Idealize.ShloMosaic.TcCoe Idealize.ShloMosaic.ValueIdx

/-- The block product's record of contracted and free axes: rows × features times features × classes. -/
abbrev blockDot : DotDims S20000x128 S128x40 S20000x40 := dot_S20000x128_S128x40_S20000x40_1_0_0_1_n_n

/-- The left factor of term `k` of entry `(p, q)` sits at row `p` … -/
theorem lhs_row (i : S20000x40.Idx) (s : blockDot.contr.Idx) : (blockDot.lhsIdx i s 0).val = (i 0).val := by
  unfold DotDims.lhsIdx
  rw [dif_neg (show ¬(0 : Fin S20000x128.rank) ∈ blockDot.lhsBatch by decide),
    dif_pos (show (0 : Fin S20000x128.rank) ∈ blockDot.lhsNonContracting by decide)]
  rfl
/-- … and feature `k`; -/
theorem lhs_feat (i : S20000x40.Idx) (s : blockDot.contr.Idx) : (blockDot.lhsIdx i s 1).val = (s ⟨0, by decide⟩).val :=
  blockDot.lhsIdx_val_of_single rfl i s
/-- the right factor at feature `k` … -/
theorem rhs_feat (i : S20000x40.Idx) (s : blockDot.contr.Idx) : (blockDot.rhsIdx i s 0).val = (s ⟨0, by decide⟩).val :=
  blockDot.rhsIdx_val_of_single rfl i s
/-- … and class `q`. -/
theorem rhs_class (i : S20000x40.Idx) (s : blockDot.contr.Idx) : (blockDot.rhsIdx i s 1).val = (i 1).val := by
  unfold DotDims.rhsIdx
  rw [dif_neg (show ¬(1 : Fin S128x40.rank) ∈ blockDot.rhsBatch by decide),
    dif_pos (show (1 : Fin S128x40.rank) ∈ blockDot.rhsNonContracting by decide)]
  rfl

/-- The block product into a zero accumulator, at `(p, q)`: the sum over the 128 features of row `p` of the left
    factor times column `q` of the right. -/
theorem product_apply (xb : FVec Ideal S20000x128 .f32) (wt : FVec Ideal S128x40 .f32) (p : Fin 20000) (q : Fin 40) :
    matmul blockDot none xb wt (constant (F := Ideal) S20000x40 .f32 0x00000000#32) (ix2 p q)
      = ∑ k : Fin 128, xb (ix2 p k) * wt (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_feat _ _).trans hk)
  have er : blockDot.rhsIdx (ix2 p q) ((contrEquiv1 blockDot 128 rfl rfl).symm k) = ix2 k q := funext fun a => Fin.ext (by
    match a with
    | ⟨0, _⟩ => exact (rhs_feat _ _).trans hk
    | ⟨1, _⟩ => exact rhs_class _ _)
  rw [el, er]

/-- The bias row broadcast down the 20000 rows, at `(p, q)`: the row's entry `q`. -/
theorem bias_apply (brow : FVec Ideal S1x40 .f32) (p : Fin 20000) (q : Fin 40) :
    broadcastTo S20000x40 brow Facts₀.broadcasts_S1x40_S20000x40 (ix2 p q) = brow (ix2 (0 : Fin 1) q) :=
  broadcastTo_apply brow Facts₀.broadcasts_S1x40_S20000x40 (ix2 p q) (ix2 (0 : Fin 1) q) (fun a => by
    match a with
    | ⟨0, _⟩ => show (0 : ℕ) = if (1 : ℕ) = 1 then 0 else _; rw [if_pos rfl]
    | ⟨1, _⟩ => show q.val = if (40 : ℕ) = 1 then 0 else q.val; rw [if_neg (by decide)])

/-- The value the body stores, at `(p, q)` of the block. -/
theorem stored_apply (xb : Vec Ideal S20000x128 .f32) (wt : Vec Ideal S128x40 .f32) (brow : Vec Ideal S1x40 .f32)
    (p : Fin 20000) (q : Fin 40) :
    k0_pay1 (F := Ideal) xb wt brow (ix2 p q) = (∑ k : Fin 128, xb (ix2 p k) * wt (ix2 k q)) + brow (ix2 (0 : Fin 1) q) := by
  unfold k0_pay1
  rw [truncf_apply, addf_apply, shapeCast_self, shapeCast_self]
  exact congrArg₂ (· + ·) (product_apply xb wt p q) (bias_apply brow p q)

end Cert.KernelIdeal.BlockValue

end
-- ==== Proof.Operands.lean ====
/-
  What a grid step reads. Step `t` is handed rows `20000·t … 20000·t + 19999` of `x` (all 128 features), the whole
  transposed weight and the whole bias row; the last two were written before the steps begin, by a transpose of `W`
  and by viewing `b` as one row. Traced back to the three argument arrays:

      xblk[p, k]  = x[20000·t + p, k],      wt[k, q] = W[q, k],      brow[0, q] = b[q].

  The output block of step `t` sits over the same rows, and over all 40 classes.
-/
import proofs.«100996_g25323127177384_cont_9to1_2235_19_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- Where each step's blocks sit, decided once over the five steps: the block of `x` moves down with the output's
    block and starts at feature 0; the weight and the bias row never move; the output's block index is at most 4
    along the rows and 0 along the classes. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every one of the five row blocks of the output is some step's. -/
theorem block_onto : ∀ s : Fin 5, ∃ t : Fin cfg0.N, win0_3.index t (0 : Fin 2) = s.val :=
  (by decide +kernel : ∀ s : Fin 5, ∃ t : Fin grid0.N, win0_3.index t (0 : Fin 2) = s.val)

/-- The transposed weight, as the steps find it. -/
theorem wt_entry (c : Dev nD) : (V m c main_v0 : S128x40.Idx → Elt F .f32)
    = transpose S128x40 [1, 0] (m ((c : Thread nD τ).loc main_arg1)) Facts₀.transposes_S40x128_S128x40_1_0 := by
  show StableHlo.after hostOps0 (fun b => m (c, b)) (Proc.devRef .tc main_v0) = _
  after_results

/-- The bias viewed as one row, as the steps find it. -/
theorem brow_entry (c : Dev nD) : (V m c main_v1 : S1x40.Idx → Elt F .f32)
    = shapeCast S1x40 (m ((c : Thread nD τ).loc main_arg2)) Facts₀.shapeCasts_S40_S1x40 := by
  show StableHlo.after hostOps0 (fun b => m (c, b)) (Proc.devRef .tc main_v1) = _
  after_results
  rfl

/-- The transposed weight at `(k, q)` is the weight at `(q, k)`. -/
theorem transpose_at (W : S40x128.Idx → Elt F .f32) (k : Fin 128) (q : Fin 40) :
    transpose S128x40 [1, 0] W Facts₀.transposes_S40x128_S128x40_1_0 (ix2 k q) = W (ix2 q k) :=
  transpose_apply [1, 0] W Facts₀.transposes_S40x128_S128x40_1_0 (ix2 k q) (ix2 q k) (fun b => match b with
    | ⟨0, _⟩ => rfl
    | ⟨1, _⟩ => rfl)

/-- The bias as one row, at `(0, q)`, is the bias at `q`. -/
theorem row_at (b : S40.Idx → Elt F .f32) (q : Fin 40) :
    shapeCast S1x40 b Facts₀.shapeCasts_S40_S1x40 (ix2 (0 : Fin 1) q) = b (ix1 q) :=
  shapeCast_apply b Facts₀.shapeCasts_S40_S1x40 (ix2 (0 : Fin 1) q) (ix1 q) (by
    rw [Shape.rowMajor_val_one, Shape.rowMajor_val_two]
    show q.val = 0 * 40 + q.val
    omega)

/-- Step `t`'s block of `x`, at `(p, k)`: row `r` of `x` whenever `r` is row `p` below the top of the step's rows. -/
theorem x_block_at (c : Dev nD) (t : Fin cfg0.N) (p : Fin 20000) (k : Fin 128) (r : Fin 100000)
    (hr : r.val = win0_3.index t (0 : Fin 2) * 20000 + p.val) :
    iblk m c 0 t (ix2 p k) = m ((c : Thread nD τ).loc main_arg0) (ix2 r k) := by
  show V m c main_arg0 (((cfg0.win 0).blk t).view.emb (ix2 p k)) = _
  refine (congrFun (V_main_arg0 m c) _).trans ?_
  refine congrArg (m ((c : Thread nD τ).loc main_arg0)) (funext fun a => Fin.ext ?_)
  obtain ⟨e0, e1, -⟩ := block_indices t
  match a with
  | ⟨0, _⟩ => show win0_0.index t (0 : Fin 2) * 20000 + 1 * p.val = r.val; omega
  | ⟨1, _⟩ => show win0_0.index t (1 : Fin 2) * 128 + 1 * k.val = k.val; omega

/-- Step `t`'s block of the transposed weight is all of it: at `(k, q)`, the weight at `(q, k)`. -/
theorem wt_block_at (c : Dev nD) (t : Fin cfg0.N) (k : Fin 128) (q : Fin 40) :
    iblk m c 1 t (ix2 k q) = m ((c : Thread nD τ).loc main_arg1) (ix2 q k) := by
  show V m c main_v0 (((cfg0.win 1).blk t).view.emb (ix2 k q)) = _
  refine (congrFun (wt_entry m c) _).trans ?_
  refine Eq.trans (congrArg _ (funext fun a => Fin.ext ?_)) (transpose_at _ k q)
  obtain ⟨-, -, e2, e3, -⟩ := block_indices t
  match a with
  | ⟨0, _⟩ => show win0_1.index t (0 : Fin 2) * 128 + 1 * k.val = k.val; omega
  | ⟨1, _⟩ => show win0_1.index t (1 : Fin 2) * 40 + 1 * q.val = q.val; omega

/-- Step `t`'s block of the bias row is all of it: at `(0, q)`, the bias at `q`. -/
theorem brow_block_at (c : Dev nD) (t : Fin cfg0.N) (q : Fin 40) :
    iblk m c 2 t (ix2 (0 : Fin 1) q) = m ((c : Thread nD τ).loc main_arg2) (ix1 q) := by
  show V m c main_v1 (((cfg0.win 2).blk t).view.emb (ix2 (0 : Fin 1) q)) = _
  refine (congrFun (brow_entry m c) _).trans ?_
  refine Eq.trans (congrArg _ (funext fun a => Fin.ext ?_)) (row_at _ q)
  obtain ⟨-, -, -, -, e4, e5, -⟩ := block_indices t
  match a with
  | ⟨0, _⟩ => show win0_2.index t (0 : Fin 2) * 1 + 1 * 0 = 0; omega
  | ⟨1, _⟩ => show win0_2.index t (1 : Fin 2) * 40 + 1 * q.val = q.val; omega

end Cert.KernelIdeal.Operands

end
-- ==== Proof.Result.lean ====
/-
  The array the five steps leave behind. Step `t` stores, at row `p` of its block and class `q`,

      (∑ k < 128, xblk[p, k] · wt[k, q]) + brow[0, q]  =  (∑ k < 128, x[20000·t + p, k] · W[q, k]) + b[q],

  which is entry `(20000·t + p, q)` of the affine map of the three arguments: each step's block is the block of ONE
  function of the arguments. The five blocks of 20000 rows tile the 100000 rows (row `r` lies in block `r / 20000`),
  so after the last step the whole array is that function.
-/
import proofs.«100996_g25323127177384_cont_9to1_2235_19_alg».proof.Proof.Affine
import proofs.«100996_g25323127177384_cont_9to1_2235_19_alg».proof.Proof.BlockValue
import proofs.«100996_g25323127177384_cont_9to1_2235_19_alg».proof.Proof.Operands

noncomputable section

namespace Cert.KernelIdeal.Result

open Cert.KernelIdeal Cert.KernelIdeal.Gen Cert.KernelIdeal.Operands Cert.KernelIdeal.BlockValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The affine map of the three argument arrays as launched, on core `c`. -/
abbrev target (c : Dev nD) : S100000x40.Idx → EReal :=
  Cert.Affine.affine (m ((c : Thread nD τ).loc main_arg0)) (m ((c : Thread nD τ).loc main_arg1)) (m ((c : Thread nD τ).loc main_arg2))

theorem origin : (![0, 0] : Fin 2 → Nat) = fun _ => 0 := funext fun a => by fin_cases a <;> rfl

/-- What step `t` writes back is its block of the affine map. -/
theorem written_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  unfold out0_3
  rw [View.canon_unit_zero origin]
  simp only [View.ld_unit_zero (S := S20000x128) origin, View.ld_unit_zero (S := S128x40) origin,
    View.ld_unit_zero (S := S1x40) origin]
  funext j
  obtain ⟨p, q, rfl⟩ : ∃ (p : Fin 20000) (q : Fin 40), j = ix2 p q := ⟨j 0, j 1, eq_ix2 j⟩
  show k0_pay1 (iblk m c 0 t) (iblk m c 1 t) (iblk m c 2 t) (ix2 p q)
    = target m c (((cfg0.win 3).blk t).view.emb (ix2 p q))
  obtain ⟨-, -, -, -, -, -, e6, e7⟩ := block_indices t
  have hp : p.val < 20000 := p.isLt
  refine (stored_apply _ _ _ p q).trans ?_
  refine Eq.trans ?_ (Cert.Affine.affine_of_coords _ _ _ _
    ⟨win0_3.index t (0 : Fin 2) * 20000 + p.val, by omega⟩ q ?_ ?_).symm
  · exact congrArg₂ (· + ·)
      (Finset.sum_congr rfl fun k _ => congrArg₂ (· * ·) (x_block_at m c t p k _ rfl) (wt_block_at m c t k q))
      (brow_block_at m c t q)
  · show win0_3.index t (0 : Fin 2) * 20000 + 1 * p.val = win0_3.index t (0 : Fin 2) * 20000 + p.val
    omega
  · show win0_3.index t (1 : Fin 2) * 40 + 1 * q.val = q.val
    omega

/-- An output index lies in step `t`'s block iff each coordinate lies in the block's range on its axis. -/
theorem mem_block (t : Fin cfg0.N) (i : S100000x40.Idx) :
    i ∈ ((cfg0.win 3).blk t).view.set ↔ ∀ a : Fin 2, win0_3.index t a * S20000x40.size a ≤ (i a).val
      ∧ (i a).val < win0_3.index t a * S20000x40.size a + S20000x40.size a := by
  show i ∈ ((View.whole main_v2).slice (win0_3.rect t)).set ↔ _
  rw [View.set_slice_whole, Rect.mem_set_unit]
  exact Iff.rfl

/-- Every output index is in the block some step writes back: row `r` in the block of step `r / 20000`. -/
theorem covered (i : S100000x40.Idx) :
    ∃ t : Fin cfg0.N, (cfg0.win 3).flush t = true ∧ i ∈ ((cfg0.win 3).blk t).view.set := by
  have hi0 : (i 0).val < 100000 := (i 0).isLt
  have hi1 : (i 1).val < 40 := (i 1).isLt
  obtain ⟨t, ht⟩ := block_onto ⟨(i 0).val / 20000, by omega⟩
  have q0 : win0_3.index t (0 : Fin 2) = (i 0).val / 20000 := ht
  obtain ⟨-, -, -, -, -, -, -, e7⟩ := block_indices t
  refine ⟨t, flush0_3 t, ?_⟩
  rw [mem_block]
  intro a
  match a with
  | ⟨0, _⟩ =>
    show win0_3.index t (0 : Fin 2) * 20000 ≤ (i 0).val ∧ (i 0).val < win0_3.index t (0 : Fin 2) * 20000 + 20000
    omega
  | ⟨1, _⟩ =>
    show win0_3.index t (1 : Fin 2) * 40 ≤ (i 1).val ∧ (i 1).val < win0_3.index t (1 : Fin 2) * 40 + 40
    omega

/-- After the last step the output array is the affine map of the arguments. -/
theorem array_eq (c : Dev nD) : (dats m 0 c).arrAt 3 cfg0.N = target m c :=
  (dats m 0 c).arrAt_eq_of_cover 3 (target m c) (fun t _ => written_eq m c t) (covered)

end Cert.KernelIdeal.Result

end
-- ==== Proof.KernelRun.lean ====
/-
  The kernel's whole run, read. After the five steps one more operation widens the stored array back to the wide
  float format; over the extended reals a change of format is the identity, so the result is the array the steps
  left: the affine map of the three arguments. The arguments themselves end as they began.
-/
import proofs.«100996_g25323127177384_cont_9to1_2235_19_alg».proof.Proof.Result
import Idealize.ShloMosaic.Lib.StableHlo.Run

noncomputable section

namespace Cert.KernelIdeal.KernelRun

open Cert.KernelIdeal Cert.KernelIdeal.Gen Cert.KernelIdeal.Result
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result of the operation after the steps: the widened output array, which is the affine map. -/
theorem widened_eq (c : Dev nD) :
    Pipeline.afterTail₀ cfgs (dats m) 0 (V0 m) [hostOps1] c main_v3 = target m c := by
  unfold Pipeline.afterTail₀
  show StableHlo.after hostOps1 _ (Proc.devRef .tc main_v3) = _
  after_results
  have stored : Pipeline.withArrays (cfgs 0).spec c (V0 m c) (fun w => (dats m 0 c).arrAt w (cfgs 0).N)
      (Proc.devRef .tc main_v2) = target m c :=
    (Pipeline.withArrays_arr spec0 launch0.win.arr_inj c _ _ 3).trans (array_eq m c)
  funext i
  exact congrFun stored i

/-- Every weakly fair execution of the kernel's program terminates with its result at the affine map of the
    arguments, and the arguments unchanged. -/
theorem run : θ_run defs (onTc (τ := τ) (main (F := Ideal))) ⟨m, fun _ => 0, ρ⟩ fun r => ∀ c : Dev nD,
      r.2.mem ((c.tc : Thread nD τ).loc main_v3) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (widened_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  A linear classifier head, `out = x · Wᵀ + b` with `x` of 100000 rows and 128 features, `W` of 40 classes by 128
  features and `b` of 40 entries, computed two ways.

  The kernel transposes `W`, views `b` as one row, and then in five steps of 20000 rows multiplies each block of rows of
  `x` by the whole transposed weight into a zero accumulator, adds the bias row down the rows, and stores the block in a
  narrower float format; one last operation widens the stored array again. The reference transposes `W`, contracts `x`
  with it over the features in one product, broadcasts `b` to every row and adds.

  Read over the extended reals, where a change of float format is the identity and a product into a zero accumulator
  is the plain sum over the contracted axis, both give at every row `r` and class `j`

      (∑ k < 128, x[r, k] · W[j, k]) + b[j]

  — the same terms, in the same order, with the bias added once to the finished sum. No law of arithmetic beyond
  reading the two programs is needed, so the finiteness of the inputs is never used for the values. The kernel's five
  blocks tile the rows (row `r` is in block `r / 20000`), so its output array is that one function everywhere.

  The idealized kernel is the kernel's own text read over the extended reals: no operation was rewritten, and the
  statement that it is the sanctioned idealization is empty.

  Parts: `Affine` (the function), `RefAffine` (the reference is it), `BlockValue` (what one step stores, entry by
  entry), `Operands` (what one step reads, traced to the arguments), `Result` (the array after the steps),
  `KernelRun` (the whole run of the kernel read), and below the five claims.
-/
import proofs.«100996_g25323127177384_cont_9to1_2235_19_alg».proof.Defs
import proofs.«100996_g25323127177384_cont_9to1_2235_19_alg».proof.Proof.Gen.Kernel
import proofs.«100996_g25323127177384_cont_9to1_2235_19_alg».proof.Proof.Gen.Kernel.Frame
import proofs.«100996_g25323127177384_cont_9to1_2235_19_alg».proof.Proof.Gen.KernelIdeal
import proofs.«100996_g25323127177384_cont_9to1_2235_19_alg».proof.Proof.Gen.KernelIdeal.Frame
import proofs.«100996_g25323127177384_cont_9to1_2235_19_alg».proof.Proof.Gen.ReferenceIdeal
import proofs.«100996_g25323127177384_cont_9to1_2235_19_alg».proof.Proof.Gen.Pre_finite_inputs
import proofs.«100996_g25323127177384_cont_9to1_2235_19_alg».proof.Proof.Gen.ReferenceIdeal.Run
import proofs.«100996_g25323127177384_cont_9to1_2235_19_alg».proof.Proof.Gen.ReferenceIdeal.Read
import proofs.«100996_g25323127177384_cont_9to1_2235_19_alg».proof.Proof.RefAffine
import proofs.«100996_g25323127177384_cont_9to1_2235_19_alg».proof.Proof.KernelRun

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to state. -/
theorem preserves : Cert.preserves_Kernel_KernelIdeal := trivial

/-- From memories that agree on `x`, `W` and `b`, the kernel and the reference both end with the affine map of those
    three arrays as their result. -/
theorem algebraic : Cert.algebraic_KernelIdeal_ReferenceIdeal := by
  intro m ρ m' ρ' _ hagree
  refine ⟨fun c => Cert.KernelIdeal.Result.target m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefAffine.val_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
